-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel

variable [Facts]

def fn {F : FTy → Type} [FloatOps F] (main_arg0 : FVec F S4x4096x64 .f32) (main_arg1 : FVec F S4x4096x64 .f32) (main_arg2 : FVec F S4x4096x64 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S4x4096x64 .f32 := Host.absf main_arg1
  let main_cst_0 : FVec F S_ .f32 := constant S_ .f32 0x7F800000#32
  let main_v5 : FVec F S4x4096x64 .f32 := broadcastInDim S4x4096x64 ![] bcast_S_S4x4096x64 main_cst_0
  let main_v6 : IVec S4x4096x64 1 := cmpf .olt main_v4 main_v5
  let main_c_1 : IVec S_ 1 := constantI S_ 1 1#1
  let main_v7 : IVec S_ 1 := (fun x v => Host.reduce IntOp.andi x v reducesTo_S4x4096x64_S_d0_1_2 h_S_) main_v6 main_c_1
  let main_v8 : IVec S_ 1 := andi main_v3 main_v7
  let main_v9 : FVec F S4x4096x64 .f32 := Host.absf main_arg2
  let main_cst_2 : FVec F S_ .f32 := constant S_ .f32 0x7F800000#32
  let main_v10 : FVec F S4x4096x64 .f32 := broadcastInDim S4x4096x64 ![] bcast_S_S4x4096x64 main_cst_2
  let main_v11 : IVec S4x4096x64 1 := cmpf .olt main_v9 main_v10
  let main_c_3 : IVec S_ 1 := constantI S_ 1 1#1
  let main_v12 : IVec S_ 1 := (fun x v => Host.reduce IntOp.andi x v reducesTo_S4x4096x64_S_d0_1_2 h_S_) main_v11 main_c_3
  let main_v13 : IVec S_ 1 := andi main_v8 main_v12
  main_v13
-- ==== Kernel.lean ====
abbrev S4x4096x64 : Shape := ⟨3, ![4, 4096, 64]⟩
abbrev S1x1024x64 : Shape := ⟨3, ![1, 1024, 64]⟩
abbrev S1x256x64 : Shape := ⟨3, ![1, 256, 64]⟩
abbrev S1x1024x256 : Shape := ⟨3, ![1, 1024, 256]⟩

abbrev nBuf : Space → Nat
  | .hbm => 4
  | .vmem => 9
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .hbm, ⟨3, _⟩ => ⟨S4x4096x64, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | .local _ .vmem, ⟨6, _⟩ => ⟨S1x1024x64, .f32⟩
  | .local _ .vmem, ⟨7, _⟩ => ⟨S1x1024x64, .f32⟩
  | .local _ .vmem, ⟨8, _⟩ => ⟨S1x1024x64, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v52 : BitVec 1 := Scalar.cmpi .eq arg2 c3_i32
  let v53 : BitVec 32 := Scalar.extui v52
  let c0_i32_55 : BitVec 32 := 0#32
  let v54 : BitVec 1 := Scalar.cmpi .ne v53 c0_i32_55
  v54

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1x1024x64 : S1x1024x64.ShapeCasts S1x1024x64
  inb_S1x1024x64_S1x256x64_0_0_0 : ∀ a, (![0, 0, 0] : Fin 3 → Nat) a + S1x256x64.size a ≤ S1x1024x64.size a
  h_S1x256x64 : 0 < S1x256x64.numel
  bitsLt_bf16_f32 : FTy.bits .bf16 < FTy.bits .f32
  inb_S1x1024x64_S1x256x64_0_256_0 : ∀ a, (![0, 256, 0] : Fin 3 → Nat) a + S1x256x64.size a ≤ S1x1024x64.size a
  inb_S1x1024x64_S1x256x64_0_512_0 : ∀ a, (![0, 512, 0] : Fin 3 → Nat) a + S1x256x64.size a ≤ S1x1024x64.size a
  inb_S1x1024x64_S1x256x64_0_768_0 : ∀ a, (![0, 768, 0] : Fin 3 → Nat) a + S1x256x64.size a ≤ S1x1024x64.size a
  dot_S1x1024x64_S1x256x64_S1x1024x256_2_2_1_1_0_0_wf : DotDims.WF S1x1024x64 S1x256x64 S1x1024x256 [2] [2] [1] [1] [0] [0]
  dot_S1x1024x256_S1x256x64_S1x1024x64_2_1_1_2_0_0_wf : DotDims.WF S1x1024x256 S1x256x64 S1x1024x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S4x4096x64.size a
  hwx0_0 : ∀ i : grid0.Coords, EltTy.bits .f32 = 32 ∨ (Rect.block (s := S4x4096x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S4x4096x64.size a
  hwx0_1 : ∀ i : grid0.Coords, EltTy.bits .f32 = 32 ∨ (Rect.block (s := S4x4096x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S4x4096x64.size a
  hwx0_2 : ∀ i : grid0.Coords, EltTy.bits .f32 = 32 ∨ (Rect.block (s := S4x4096x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S4x4096x64.size a
  hwx0_3 : ∀ i : grid0.Coords, EltTy.bits .f32 = 32 ∨ (Rect.block (s := S4x4096x64) S1x1024x64.size (cc0_transform_3 i) (hinb0_3 i)).WholeWords (EltTy.packing .f32)

variable [Facts₀]

def dot_S1x1024x64_S1x256x64_S1x1024x256_2_2_1_1_0_0 : DotDims S1x1024x64 S1x256x64 S1x1024x256 where
  lhsContracting := [2]
  rhsContracting := [2]
  lhsNonContracting := [1]
  rhsNonContracting := [1]
  lhsBatch := [0]
  rhsBatch := [0]
  wf := dot_S1x1024x64_S1x256x64_S1x1024x256_2_2_1_1_0_0_wf
def dot_S1x1024x256_S1x256x64_S1x1024x64_2_1_1_2_0_0 : DotDims S1x1024x256 S1x256x64 S1x1024x64 where
  lhsContracting := [2]
  rhsContracting := [1]
  lhsNonContracting := [1]
  rhsNonContracting := [2]
  lhsBatch := [0]
  rhsBatch := [0]
  wf := dot_S1x1024x256_S1x256x64_S1x1024x64_2_1_1_2_0_0_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x4096x64 : Shape := ⟨3, ![4, 4096, 64]⟩
abbrev S4x4096x4096 : Shape := ⟨3, ![4, 4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .hbm, ⟨3, _⟩ => ⟨S4x4096x4096, .f32⟩
  | .hbm, ⟨4, _⟩ => ⟨S4x4096x4096, .f32⟩
  | .hbm, ⟨5, _⟩ => ⟨S4x4096x64, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.ExpAttention.lean ====
/-
  Unnormalized exponential attention as one function of the three argument arrays,
  over the extended reals:

      out[b, i, d] = Σ_j exp (Σ_e q[b, i, e] · k[b, j, e]) · v[b, j, d],

  the sum over all 4096 key rows j. There is no scaling, no subtraction of a row maximum and no
  normalisation. A kernel that walks the key rows in consecutive chunks holds, after the rows
  below n, the partial sum over j < n; the facts below say that the empty partial sum is zero,
  that a chunk of 256 rows adds its 256 summands, and that the partial sum over all 4096 rows is
  the whole sum. Addition on the extended reals is a commutative monoid, so none of this asks
  the entries to be finite.
-/
import Idealize.ShloMosaic.PureOps.Ideal
import Idealize.ShloMosaic.Lib.ValueIdx

noncomputable section

namespace Cert.ExpAttention

open Idealize.ShloMosaic Idealize.ShloMosaic.ValueIdx
open scoped BigOperators

/-- The shape of each of q, k, v and of the result: batch 4, 4096 rows, 64 features. -/
abbrev SArr : Shape := ⟨3, ![4, 4096, 64]⟩

variable (q k v : SArr.Idx → EReal)

/-- The score of query row i against key row j in batch b: their inner product over the 64 features. -/
def score (b : Fin 4) (i j : Fin 4096) : EReal := ∑ e : Fin 64, q (ix3 b i e) * k (ix3 b j e)

/-- Key row j's summand of out[b, i, d]: the exponential of the score, times v[b, j, d]. -/
def term (b : Fin 4) (i : Fin 4096) (d : Fin 64) (j : Fin 4096) : EReal :=
  Ideal.exp (score q k b i j) * v (ix3 b j d)

/-- The summand indexed by a natural number: zero from row 4096 on. -/
def termN (b : Fin 4) (i : Fin 4096) (d : Fin 64) (n : ℕ) : EReal :=
  if h : n < 4096 then term q k v b i d ⟨n, h⟩ else 0

/-- The partial sum of out[b, i, d] over the key rows below n. -/
def partialSum (b : Fin 4) (i : Fin 4096) (d : Fin 64) (n : ℕ) : EReal :=
  ∑ j ∈ Finset.range n, termN q k v b i d j

/-- Unnormalized exponential attention: every entry is the sum of its 4096 summands. -/
def expAttn : SArr.Idx → EReal := fun x => ∑ j : Fin 4096, term q k v (x 0) (x 1) (x 2) j

theorem termN_of_lt (b : Fin 4) (i : Fin 4096) (d : Fin 64) (n : ℕ) (h : n < 4096) :
    termN q k v b i d n = term q k v b i d ⟨n, h⟩ := dif_pos h

/-- Before any key row has been visited the partial sum is zero. -/
theorem partialSum_zero (b : Fin 4) (i : Fin 4096) (d : Fin 64) : partialSum q k v b i d 0 = 0 :=
  Finset.sum_range_zero _

/-- Visiting the 256 key rows n, …, n + 255 adds exactly their summands to the partial sum. -/
theorem partialSum_add_chunk (b : Fin 4) (i : Fin 4096) (d : Fin 64) (n : ℕ) (hn : n + 256 ≤ 4096) :
    partialSum q k v b i d (n + 256)
      = partialSum q k v b i d n + ∑ j : Fin 256, term q k v b i d ⟨n + j.val, by have := j.isLt; omega⟩ := by
  unfold partialSum
  rw [Finset.sum_range_add, ← Fin.sum_univ_eq_sum_range (fun x => termN q k v b i d (n + x)) 256]
  refine congrArg (_ + ·) (Finset.sum_congr rfl fun j _ => ?_)
  exact termN_of_lt q k v b i d (n + j.val) (by have := j.isLt; omega)

/-- Once all 4096 key rows have been visited the partial sum is the whole sum. -/
theorem partialSum_full (b : Fin 4) (i : Fin 4096) (d : Fin 64) :
    partialSum q k v b i d 4096 = ∑ j : Fin 4096, term q k v b i d j := by
  unfold partialSum
  rw [← Fin.sum_univ_eq_sum_range (fun x => termN q k v b i d x) 4096]
  exact Finset.sum_congr rfl fun j _ => termN_of_lt q k v b i d j.val j.isLt

end Cert.ExpAttention

end
-- ==== Proof.ReferenceIsExpAttention.lean ====
/-
  The reference computes unnormalized exponential attention. Its three host operations are a
  batched product q · kᵀ contracting the 64 features, the exponential entry by entry, and a batched
  product with v contracting the 4096 key rows. Read at an index (b, i, d), the last product is the
  sum over key rows j of the middle stage at (b, i, j) times v[b, j, d]; the middle stage there is the
  exponential of the first product at (b, i, j), which is the inner product of q[b, i, ·] and k[b, j, ·].
  That is the summand of `expAttn`, term by term.
-/
import proofs.«124005_j60653528154261_2_alg».proof.Proof.Gen.ReferenceIdeal.Read
import proofs.«124005_j60653528154261_2_alg».proof.Proof.ExpAttention

noncomputable section

namespace Cert.ReferenceIdeal.RefValue

open Cert.ReferenceIdeal Cert.ReferenceIdeal.Read Idealize.ShloMosaic Idealize.ShloMosaic.ValueIdx
open Cert.ExpAttention
open scoped BigOperators

/-- The reference's result, as a function of its three arguments at the extended reals, is `expAttn`. -/
theorem reference_eq (q k v : (⟨S4x4096x64, .f32⟩ : BufTy).Contents (Elt Ideal)) :
    val_main_v2 (F := Ideal) q k v = expAttn q k v := by
  funext i
  -- the query row read by the first product inside the second: (b, i, e)
  have hq : ∀ (j : Fin 4096) (e : Fin 64), lidx_main_v0 (lidx_main_v2 i j) e = ix3 (i 0) (i 1) e :=
    fun j e => funext fun a => Fin.ext (by match a with | ⟨0, _⟩ => rfl | ⟨1, _⟩ => rfl | ⟨2, _⟩ => rfl)
  -- the key row read there: (b, j, e)
  have hk : ∀ (j : Fin 4096) (e : Fin 64), ridx_main_v0 (lidx_main_v2 i j) e = ix3 (i 0) j e :=
    fun j e => funext fun a => Fin.ext (by match a with | ⟨0, _⟩ => rfl | ⟨1, _⟩ => rfl | ⟨2, _⟩ => rfl)
  -- the value entry the second product reads: (b, j, d)
  have hv : ∀ j : Fin 4096, ridx_main_v2 i j = ix3 (i 0) j (i 2) :=
    fun j => funext fun a => Fin.ext (by match a with | ⟨0, _⟩ => rfl | ⟨1, _⟩ => rfl | ⟨2, _⟩ => rfl)
  rw [val_main_v2_apply]
  unfold expAttn term score
  refine Finset.sum_congr rfl fun j _ => ?_
  rw [val_main_v1_apply, val_main_v0_apply, Ideal.hostUnary_exp_def, hv]
  simp only [hq, hk]
  rfl

end Cert.ReferenceIdeal.RefValue

end
-- ==== Proof.LibCoveredLoad.lean ====
/-
  A load of a whole buffer after several stores, the last of which overwrote the whole buffer.

  The library reads a whole-buffer load after ONE whole-buffer store as that store's payload
  (`View.readCov_unit_zero`). An accumulator that is rewritten whole several times in one body and
  read back in between needs the same fact after a list of stores: only the last store matters,
  because it covers every index.
-/
import Idealize.ShloMosaic.Lib.Pipeline.Value

noncomputable section

namespace Cert.LibCoveredLoad

open Idealize.ShloMosaic Idealize.ShloMosaic.View

variable {Val : EltTy → Type} {S : Shape} {e : EltTy}

/-- A load through the whole-shape rectangle at zero offsets, after a list of stores (last first) whose
    last one went through that same rectangle, reads that last store's payload, whatever the earlier
    stores were: the last store covers every index. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons.mpr (Or.inl rfl), mem_set_unit_zero rfl inb y⟩),
    canon_cons_unit_zero rfl, ld_unit_zero rfl]

end Cert.LibCoveredLoad

end
-- ==== Proof.FourChunks.lean ====
/-
  What one grid point does to the accumulator, as one function of the point's blocks.

  At a grid point the body holds a query block (1024 rows), a key block and a value block (1024 rows
  each) and the accumulator. It walks the key and value blocks in four chunks of 256 rows — rows
  0–255, 256–511, 512–767, 768–1023 — and each chunk adds its contribution to the accumulator, which
  is rewritten whole after every chunk and read back before the next. Only the last store of a
  whole buffer matters to a later load of it, so the accumulator after the point is the four chunk
  payloads composed, innermost first. At the first point of a run the accumulator starts from the
  zero block the body stores first; at the other points from what the point before left; and at
  the last point of a run the body copies the accumulator to the output block.
-/
import proofs.«124005_j60653528154261_2_alg».proof.Proof.Gen.KernelIdeal.Frame
import proofs.«124005_j60653528154261_2_alg».proof.Proof.LibCoveredLoad
import Idealize.ShloMosaic.Lib.Pipeline.Value
import Idealize.ShloMosaic.Lib.Tactic

set_option maxRecDepth 16384

noncomputable section

namespace Cert.KernelIdeal.FourChunks

open Cert.KernelIdeal Cert.KernelIdeal.Gen Idealize.ShloMosaic Idealize.ShloMosaic.TcCoe Idealize.ShloMosaic.Tactic
open Idealize.SL.Sem Cert.LibCoveredLoad

variable {F : FTy → Type} [FloatOps F]

/-- The offsets of a whole-buffer load or store: zero on each of the three axes. -/
theorem zeroOffsets : (![0, 0, 0] : Fin 3 → Nat) = fun _ => 0 := funext fun a => by fin_cases a <;> rfl

/-- Rows 256·n, …, 256·n + 255 of a 1024-row block, for the four chunks n = 0, 1, 2, 3. -/
abbrev rows0 (x : Vec F S1x1024x64 .f32) : Vec F S1x256x64 .f32 :=
  View.ld x (Rect.unit (s := S1x1024x64) ![0, 0, 0] S1x256x64.size inb_S1x1024x64_S1x256x64_0_0_0)
abbrev rows1 (x : Vec F S1x1024x64 .f32) : Vec F S1x256x64 .f32 :=
  View.ld x (Rect.unit (s := S1x1024x64) ![0, 256, 0] S1x256x64.size inb_S1x1024x64_S1x256x64_0_256_0)
abbrev rows2 (x : Vec F S1x1024x64 .f32) : Vec F S1x256x64 .f32 :=
  View.ld x (Rect.unit (s := S1x1024x64) ![0, 512, 0] S1x256x64.size inb_S1x1024x64_S1x256x64_0_512_0)
abbrev rows3 (x : Vec F S1x1024x64 .f32) : Vec F S1x256x64 .f32 :=
  View.ld x (Rect.unit (s := S1x1024x64) ![0, 768, 0] S1x256x64.size inb_S1x1024x64_S1x256x64_0_768_0)

/-- The accumulator after a point, from the query block `qb`, the key block `kb`, the value block `vb` and the
    accumulator `acc` the point starts from: the four chunks' payloads, the first chunk innermost. -/
def fourChunks (qb kb vb acc : Vec F S1x1024x64 .f32) : Vec F S1x1024x64 .f32 :=
  k0_pay6 qb (rows3 kb) (rows3 vb)
    (k0_pay5 qb (rows2 kb) (rows2 vb)
      (k0_pay4 (k0_pay3 qb (rows1 kb) (rows1 vb)
        (k0_pay2 qb (rows0 kb) (rows0 vb) acc))))

variable (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1x1024x64 .f32) (harg7 : arg7.IsWhole)

/-- A point in the middle of a run leaves the four chunks added to what the point before left. -/
theorem scratch_B (hc0 : ¬cond0_0 i) (hc1 : ¬cond0_1 i) (x0 x1 x2 xs0 : Vec F S1x1024x64 .f32) :
    sout0_B_0 c i arg3 harg3 arg4 harg4 arg5 harg5 arg6 harg6 arg7 harg7 hc0 hc1 x0 x1 x2 xs0 = fourChunks x0 x1 x2 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  simp only [View.canon_cons_unit_zero (S := S1x1024x64) zeroOffsets, View.canon_unit_zero (S := S1x1024x64) zeroOffsets,
    readCov_cons_unit_zero (S := S1x1024x64) _ zeroOffsets, View.readCov_unit_zero (S := S1x1024x64) _ zeroOffsets,
    View.readAt_eq_ld, harg3.read_unread, harg4.read_unread, harg5.read_unread, harg7.read_unread,
    View.ld_unit_zero (S := S1x1024x64) zeroOffsets]
  rfl

/-- The first point of a run stores the zero block first, so it leaves the four chunks added to zero. -/
theorem scratch_A (hc0 : cond0_0 i) (hc1 : ¬cond0_1 i) (x0 x1 x2 : Vec F S1x1024x64 .f32) :
    sout0_A_0 c i arg3 harg3 arg4 harg4 arg5 harg5 arg6 harg6 arg7 harg7 hc0 hc1 x0 x1 x2 = fourChunks x0 x1 x2 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  simp only [View.canon_cons_unit_zero (S := S1x1024x64) zeroOffsets, View.canon_unit_zero (S := S1x1024x64) zeroOffsets,
    readCov_cons_unit_zero (S := S1x1024x64) _ zeroOffsets, View.readCov_unit_zero (S := S1x1024x64) _ zeroOffsets,
    View.readAt_eq_ld, harg3.read_unread, harg4.read_unread, harg5.read_unread, harg7.read_unread,
    View.ld_unit_zero (S := S1x1024x64) zeroOffsets]
  rfl

/-- The last point of a run leaves the same in the accumulator as a middle point does … -/
theorem scratch_C (hc0 : ¬cond0_0 i) (hc1 : cond0_1 i) (x0 x1 x2 xs0 : Vec F S1x1024x64 .f32) :
    sout0_C_0 c i arg3 harg3 arg4 harg4 arg5 harg5 arg6 harg6 arg7 harg7 hc0 hc1 x0 x1 x2 xs0 = fourChunks x0 x1 x2 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  simp only [View.canon_cons_unit_zero (S := S1x1024x64) zeroOffsets, View.canon_unit_zero (S := S1x1024x64) zeroOffsets,
    readCov_cons_unit_zero (S := S1x1024x64) _ zeroOffsets, View.readCov_unit_zero (S := S1x1024x64) _ zeroOffsets,
    View.readAt_eq_ld, harg3.read_unread, harg4.read_unread, harg5.read_unread, harg7.read_unread,
    View.ld_unit_zero (S := S1x1024x64) zeroOffsets]
  rfl

/-- … and copies it to the output block. -/
theorem output_C (hc0 : ¬cond0_0 i) (hc1 : cond0_1 i) (x0 x1 x2 xs0 : Vec F S1x1024x64 .f32) :
    out0_C_3 c i arg3 harg3 arg4 harg4 arg5 harg5 arg6 harg6 arg7 harg7 hc0 hc1 x0 x1 x2 xs0 = fourChunks x0 x1 x2 xs0 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  simp only [View.canon_cons_unit_zero (S := S1x1024x64) zeroOffsets, View.canon_unit_zero (S := S1x1024x64) zeroOffsets,
    readCov_cons_unit_zero (S := S1x1024x64) _ zeroOffsets, View.readCov_unit_zero (S := S1x1024x64) _ zeroOffsets,
    View.readAt_eq_ld, harg3.read_unread, harg4.read_unread, harg5.read_unread, harg7.read_unread,
    View.ld_unit_zero (S := S1x1024x64) zeroOffsets]
  rfl

end Cert.KernelIdeal.FourChunks

end
-- ==== Proof.ChunkAtIndex.lean ====
/-
  One chunk's arithmetic, entry by entry, over the extended reals.

  A chunk takes the query block (1024 rows of 64 features), 256 rows of keys and the same 256 rows of
  values. It forms the 1024 × 256 scores — each the inner product of a query row and a key row over the
  64 features —, takes their exponentials, and multiplies by the values, contracting the 256 rows. Over
  the extended reals both products are plain sums, the narrowing of the exponentials and of the values
  to a shorter float format changes nothing, and the zero the products accumulate into is 0. So entry
  (r, d) of what the chunk adds to the accumulator is

      Σ_{x < 256} exp (Σ_{e < 64} q[r, e] · k[x, e]) · v[x, d].
-/
import proofs.«124005_j60653528154261_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.ChunkAtIndex

open Cert.KernelIdeal Cert.KernelIdeal.Gen Idealize.ShloMosaic Idealize.ShloMosaic.ValueIdx
open scoped BigOperators

/-- The exponential of a block, entry by entry. -/
theorem exp_apply {s : Shape} {φ : FTy} (a : FVec Ideal s φ) (j : s.Idx) : exp a j = Ideal.exp (a j) := rfl

/-! ### The operands of the score product at an output entry (batch, query row, key row) and a feature -/

theorem scoreLhs0 (j : S1x1024x256.Idx) (q : dot_S1x1024x64_S1x256x64_S1x1024x256_2_2_1_1_0_0.contr.Idx) :
    (dot_S1x1024x64_S1x256x64_S1x1024x256_2_2_1_1_0_0.lhsIdx j q 0).val = (j 0).val := by
  unfold DotDims.lhsIdx
  rw [dif_pos (show (0 : Fin S1x1024x64.rank) ∈ dot_S1x1024x64_S1x256x64_S1x1024x256_2_2_1_1_0_0.lhsBatch by decide)]
  rfl
theorem scoreLhs1 (j : S1x1024x256.Idx) (q : dot_S1x1024x64_S1x256x64_S1x1024x256_2_2_1_1_0_0.contr.Idx) :
    (dot_S1x1024x64_S1x256x64_S1x1024x256_2_2_1_1_0_0.lhsIdx j q 1).val = (j 1).val := by
  unfold DotDims.lhsIdx
  rw [dif_neg (show ¬(1 : Fin S1x1024x64.rank) ∈ dot_S1x1024x64_S1x256x64_S1x1024x256_2_2_1_1_0_0.lhsBatch by decide), dif_pos (show (1 : Fin S1x1024x64.rank) ∈ dot_S1x1024x64_S1x256x64_S1x1024x256_2_2_1_1_0_0.lhsNonContracting by decide)]
  rfl
theorem scoreLhs2 (j : S1x1024x256.Idx) (q : dot_S1x1024x64_S1x256x64_S1x1024x256_2_2_1_1_0_0.contr.Idx) :
    (dot_S1x1024x64_S1x256x64_S1x1024x256_2_2_1_1_0_0.lhsIdx j q 2).val = (q ⟨0, by decide⟩).val :=
  dot_S1x1024x64_S1x256x64_S1x1024x256_2_2_1_1_0_0.lhsIdx_val_of_single rfl j q
theorem scoreRhs0 (j : S1x1024x256.Idx) (q : dot_S1x1024x64_S1x256x64_S1x1024x256_2_2_1_1_0_0.contr.Idx) :
    (dot_S1x1024x64_S1x256x64_S1x1024x256_2_2_1_1_0_0.rhsIdx j q 0).val = (j 0).val := by
  unfold DotDims.rhsIdx
  rw [dif_pos (show (0 : Fin S1x256x64.rank) ∈ dot_S1x1024x64_S1x256x64_S1x1024x256_2_2_1_1_0_0.rhsBatch by decide)]
  rfl
theorem scoreRhs1 (j : S1x1024x256.Idx) (q : dot_S1x1024x64_S1x256x64_S1x1024x256_2_2_1_1_0_0.contr.Idx) :
    (dot_S1x1024x64_S1x256x64_S1x1024x256_2_2_1_1_0_0.rhsIdx j q 1).val = (j 2).val := by
  unfold DotDims.rhsIdx
  rw [dif_neg (show ¬(1 : Fin S1x256x64.rank) ∈ dot_S1x1024x64_S1x256x64_S1x1024x256_2_2_1_1_0_0.rhsBatch by decide), dif_pos (show (1 : Fin S1x256x64.rank) ∈ dot_S1x1024x64_S1x256x64_S1x1024x256_2_2_1_1_0_0.rhsNonContracting by decide)]
  rfl
theorem scoreRhs2 (j : S1x1024x256.Idx) (q : dot_S1x1024x64_S1x256x64_S1x1024x256_2_2_1_1_0_0.contr.Idx) :
    (dot_S1x1024x64_S1x256x64_S1x1024x256_2_2_1_1_0_0.rhsIdx j q 2).val = (q ⟨0, by decide⟩).val :=
  dot_S1x1024x64_S1x256x64_S1x1024x256_2_2_1_1_0_0.rhsIdx_val_of_single rfl j q

/-- A score: query row r against key row x of the chunk, the inner product over the 64 features. -/
theorem scores_apply (qb : FVec Ideal S1x1024x64 .f32) (kc : FVec Ideal S1x256x64 .f32) (r : Fin 1024) (x : Fin 256) :
    matmul (φ₁ := .f32) (φ₂ := .f32) dot_S1x1024x64_S1x256x64_S1x1024x256_2_2_1_1_0_0 (some .fp32) qb kc (constant (F := Ideal) S1x1024x256 .f32 0x00000000#32) (ix3 0 r x)
      = ∑ e : Fin 64, qb (ix3 0 r e) * kc (ix3 0 x e) := by
  simp only [matmul]
  rw [Ideal.matmul_constant_zero_apply, ← Equiv.sum_comp (ValueIdx.contrEquiv1 dot_S1x1024x64_S1x256x64_S1x1024x256_2_2_1_1_0_0 64 rfl rfl).symm]
  refine Finset.sum_congr rfl fun e _ => ?_
  have he := ValueIdx.contrEquiv1_symm_val dot_S1x1024x64_S1x256x64_S1x1024x256_2_2_1_1_0_0 64 rfl rfl e
  have el : dot_S1x1024x64_S1x256x64_S1x1024x256_2_2_1_1_0_0.lhsIdx (ix3 0 r x) ((ValueIdx.contrEquiv1 dot_S1x1024x64_S1x256x64_S1x1024x256_2_2_1_1_0_0 64 rfl rfl).symm e) = ix3 0 r e := funext fun a => Fin.ext (by
    match a with
    | ⟨0, _⟩ => exact scoreLhs0 _ _
    | ⟨1, _⟩ => exact scoreLhs1 _ _
    | ⟨2, _⟩ => exact (scoreLhs2 _ _).trans he)
  have er : dot_S1x1024x64_S1x256x64_S1x1024x256_2_2_1_1_0_0.rhsIdx (ix3 0 r x) ((ValueIdx.contrEquiv1 dot_S1x1024x64_S1x256x64_S1x1024x256_2_2_1_1_0_0 64 rfl rfl).symm e) = ix3 0 x e := funext fun a => Fin.ext (by
    match a with
    | ⟨0, _⟩ => exact scoreRhs0 _ _
    | ⟨1, _⟩ => exact scoreRhs1 _ _
    | ⟨2, _⟩ => exact (scoreRhs2 _ _).trans he)
  rw [el, er]

/-! ### The operands of the product with the values at an output entry (batch, query row, feature) and a key row -/

theorem weightLhs0 (j : S1x1024x64.Idx) (q : dot_S1x1024x256_S1x256x64_S1x1024x64_2_1_1_2_0_0.contr.Idx) :
    (dot_S1x1024x256_S1x256x64_S1x1024x64_2_1_1_2_0_0.lhsIdx j q 0).val = (j 0).val := by
  unfold DotDims.lhsIdx
  rw [dif_pos (show (0 : Fin S1x1024x256.rank) ∈ dot_S1x1024x256_S1x256x64_S1x1024x64_2_1_1_2_0_0.lhsBatch by decide)]
  rfl
theorem weightLhs1 (j : S1x1024x64.Idx) (q : dot_S1x1024x256_S1x256x64_S1x1024x64_2_1_1_2_0_0.contr.Idx) :
    (dot_S1x1024x256_S1x256x64_S1x1024x64_2_1_1_2_0_0.lhsIdx j q 1).val = (j 1).val := by
  unfold DotDims.lhsIdx
  rw [dif_neg (show ¬(1 : Fin S1x1024x256.rank) ∈ dot_S1x1024x256_S1x256x64_S1x1024x64_2_1_1_2_0_0.lhsBatch by decide), dif_pos (show (1 : Fin S1x1024x256.rank) ∈ dot_S1x1024x256_S1x256x64_S1x1024x64_2_1_1_2_0_0.lhsNonContracting by decide)]
  rfl
theorem weightLhs2 (j : S1x1024x64.Idx) (q : dot_S1x1024x256_S1x256x64_S1x1024x64_2_1_1_2_0_0.contr.Idx) :
    (dot_S1x1024x256_S1x256x64_S1x1024x64_2_1_1_2_0_0.lhsIdx j q 2).val = (q ⟨0, by decide⟩).val :=
  dot_S1x1024x256_S1x256x64_S1x1024x64_2_1_1_2_0_0.lhsIdx_val_of_single rfl j q
theorem weightRhs0 (j : S1x1024x64.Idx) (q : dot_S1x1024x256_S1x256x64_S1x1024x64_2_1_1_2_0_0.contr.Idx) :
    (dot_S1x1024x256_S1x256x64_S1x1024x64_2_1_1_2_0_0.rhsIdx j q 0).val = (j 0).val := by
  unfold DotDims.rhsIdx
  rw [dif_pos (show (0 : Fin S1x256x64.rank) ∈ dot_S1x1024x256_S1x256x64_S1x1024x64_2_1_1_2_0_0.rhsBatch by decide)]
  rfl
theorem weightRhs1 (j : S1x1024x64.Idx) (q : dot_S1x1024x256_S1x256x64_S1x1024x64_2_1_1_2_0_0.contr.Idx) :
    (dot_S1x1024x256_S1x256x64_S1x1024x64_2_1_1_2_0_0.rhsIdx j q 1).val = (q ⟨0, by decide⟩).val :=
  dot_S1x1024x256_S1x256x64_S1x1024x64_2_1_1_2_0_0.rhsIdx_val_of_single rfl j q
theorem weightRhs2 (j : S1x1024x64.Idx) (q : dot_S1x1024x256_S1x256x64_S1x1024x64_2_1_1_2_0_0.contr.Idx) :
    (dot_S1x1024x256_S1x256x64_S1x1024x64_2_1_1_2_0_0.rhsIdx j q 2).val = (j 2).val := by
  unfold DotDims.rhsIdx
  rw [dif_neg (show ¬(2 : Fin S1x256x64.rank) ∈ dot_S1x1024x256_S1x256x64_S1x1024x64_2_1_1_2_0_0.rhsBatch by decide), dif_pos (show (2 : Fin S1x256x64.rank) ∈ dot_S1x1024x256_S1x256x64_S1x1024x64_2_1_1_2_0_0.rhsNonContracting by decide)]
  rfl

/-- The weights times the values: entry (r, d) sums, over the chunk's 256 rows x, weight[r, x] · v[x, d]. -/
theorem weighted_apply {φ₁ φ₂ : FTy} (p : FVec Ideal S1x1024x256 φ₁) (vc : FVec Ideal S1x256x64 φ₂) (r : Fin 1024) (d : Fin 64) :
    matmul dot_S1x1024x256_S1x256x64_S1x1024x64_2_1_1_2_0_0 none p vc (constant (F := Ideal) S1x1024x64 .f32 0x00000000#32) (ix3 0 r d)
      = ∑ x : Fin 256, p (ix3 0 r x) * vc (ix3 0 x d) := by
  simp only [matmul]
  rw [Ideal.matmul_constant_zero_apply, ← Equiv.sum_comp (ValueIdx.contrEquiv1 dot_S1x1024x256_S1x256x64_S1x1024x64_2_1_1_2_0_0 256 rfl rfl).symm]
  refine Finset.sum_congr rfl fun x _ => ?_
  have hx := ValueIdx.contrEquiv1_symm_val dot_S1x1024x256_S1x256x64_S1x1024x64_2_1_1_2_0_0 256 rfl rfl x
  have el : dot_S1x1024x256_S1x256x64_S1x1024x64_2_1_1_2_0_0.lhsIdx (ix3 0 r d) ((ValueIdx.contrEquiv1 dot_S1x1024x256_S1x256x64_S1x1024x64_2_1_1_2_0_0 256 rfl rfl).symm x) = ix3 0 r x := funext fun a => Fin.ext (by
    match a with
    | ⟨0, _⟩ => exact weightLhs0 _ _
    | ⟨1, _⟩ => exact weightLhs1 _ _
    | ⟨2, _⟩ => exact (weightLhs2 _ _).trans hx)
  have er : dot_S1x1024x256_S1x256x64_S1x1024x64_2_1_1_2_0_0.rhsIdx (ix3 0 r d) ((ValueIdx.contrEquiv1 dot_S1x1024x256_S1x256x64_S1x1024x64_2_1_1_2_0_0 256 rfl rfl).symm x) = ix3 0 x d := funext fun a => Fin.ext (by
    match a with
    | ⟨0, _⟩ => exact weightRhs0 _ _
    | ⟨1, _⟩ => exact (weightRhs1 _ _).trans hx
    | ⟨2, _⟩ => exact weightRhs2 _ _)
  rw [el, er]

/-! ### What a chunk adds -/

/-- Entry (r, d) of what a chunk adds: over its 256 rows, the exponential of the score times the value. -/
def chunkSum (qb : FVec Ideal S1x1024x64 .f32) (kc vc : FVec Ideal S1x256x64 .f32) (r : Fin 1024) (d : Fin 64) : EReal :=
  ∑ x : Fin 256, Ideal.exp (∑ e : Fin 64, qb (ix3 0 r e) * kc (ix3 0 x e)) * vc (ix3 0 x d)

/-- Each of the four chunk payloads adds its chunk's sum to the accumulator it was handed. -/
theorem pay2_apply (qb acc : FVec Ideal S1x1024x64 .f32) (kc vc : FVec Ideal S1x256x64 .f32) (r : Fin 1024) (d : Fin 64) :
    k0_pay2 (F := Ideal) qb kc vc acc (ix3 0 r d) = acc (ix3 0 r d) + chunkSum qb kc vc r d := by
  unfold k0_pay2
  simp only [shapeCast_self]
  rw [addf_apply, weighted_apply]
  unfold chunkSum
  refine congrArg (_ + ·) (Finset.sum_congr rfl fun x _ => ?_)
  rw [truncf_apply, truncf_apply, exp_apply, scores_apply]

theorem pay3_apply (qb acc : FVec Ideal S1x1024x64 .f32) (kc vc : FVec Ideal S1x256x64 .f32) (r : Fin 1024) (d : Fin 64) :
    k0_pay3 (F := Ideal) qb kc vc acc (ix3 0 r d) = acc (ix3 0 r d) + chunkSum qb kc vc r d := by
  unfold k0_pay3
  rw [addf_apply, weighted_apply]
  unfold chunkSum
  refine congrArg (_ + ·) (Finset.sum_congr rfl fun x _ => ?_)
  rw [truncf_apply, truncf_apply, exp_apply, scores_apply]

theorem pay5_apply (qb acc : FVec Ideal S1x1024x64 .f32) (kc vc : FVec Ideal S1x256x64 .f32) (r : Fin 1024) (d : Fin 64) :
    k0_pay5 (F := Ideal) qb kc vc acc (ix3 0 r d) = acc (ix3 0 r d) + chunkSum qb kc vc r d := by
  unfold k0_pay5
  simp only [shapeCast_self]
  rw [addf_apply, weighted_apply]
  unfold chunkSum
  refine congrArg (_ + ·) (Finset.sum_congr rfl fun x _ => ?_)
  rw [truncf_apply, truncf_apply, exp_apply, scores_apply]

theorem pay6_apply (qb acc : FVec Ideal S1x1024x64 .f32) (kc vc : FVec Ideal S1x256x64 .f32) (r : Fin 1024) (d : Fin 64) :
    k0_pay6 (F := Ideal) qb kc vc acc (ix3 0 r d) = acc (ix3 0 r d) + chunkSum qb kc vc r d := by
  unfold k0_pay6
  simp only [shapeCast_self]
  rw [addf_apply, weighted_apply]
  unfold chunkSum
  refine congrArg (_ + ·) (Finset.sum_congr rfl fun x _ => ?_)
  rw [truncf_apply, truncf_apply, exp_apply, scores_apply]

/-- Between the second and third chunks the accumulator is stored as it is. -/
theorem pay4_eq (a : FVec Ideal S1x1024x64 .f32) : k0_pay4 (F := Ideal) a = a := by
  unfold k0_pay4
  simp only [shapeCast_self]

/-- The block the first point of a run stores first is zero everywhere. -/
theorem pay1_apply (j : S1x1024x64.Idx) : k0_pay1 (F := Ideal) j = 0 := by
  unfold k0_pay1
  simp only [shapeCast_self]
  exact Ideal.ofBits_zero_f32

end Cert.KernelIdeal.ChunkAtIndex

end
-- ==== Proof.PointStep.lean ====
/-
  One grid point advances the partial sum by 1024 key rows.

  Suppose the point's query block holds rows q0, …, q0 + 1023 of batch b of q, and its key and value
  blocks hold rows k0, …, k0 + 1023 of batch b of k and of v. The n-th chunk (n = 0, 1, 2, 3) reads rows
  256·n, …, 256·n + 255 of the key and value blocks, that is rows k0 + 256·n + x of the arrays, and what
  it adds at entry (r, d) is the sum of the summands of out[b, q0 + r, d] for exactly those key rows.
  So if the accumulator the point starts from holds, at (r, d), the partial sum over the key rows below
  k0, then after the four chunks it holds the partial sum over the key rows below k0 + 1024.
-/
import proofs.«124005_j60653528154261_2_alg».proof.Proof.ExpAttention
import proofs.«124005_j60653528154261_2_alg».proof.Proof.FourChunks
import proofs.«124005_j60653528154261_2_alg».proof.Proof.ChunkAtIndex

noncomputable section

namespace Cert.KernelIdeal.PointStep

open Cert.KernelIdeal Cert.KernelIdeal.Gen Idealize.ShloMosaic Idealize.ShloMosaic.ValueIdx
open Cert.ExpAttention Cert.KernelIdeal.FourChunks Cert.KernelIdeal.ChunkAtIndex
open scoped BigOperators

variable {F : FTy → Type} [FloatOps F]

/-! ### A chunk's rows: row y of the n-th chunk is row 256·n + y of the block -/

theorem rows0_apply (kb : Vec F S1x1024x64 .f32) (y : Fin 256) (e : Fin 64) :
    rows0 kb (ix3 0 y e) = kb (ix3 0 ⟨0 + y.val, by have := y.isLt; omega⟩ e) := by
  show kb _ = kb _
  congr 1
  funext a
  apply Fin.ext
  match a with
  | ⟨0, _⟩ => show 0 + 1 * 0 = 0; rfl
  | ⟨1, _⟩ => show 0 + 1 * y.val = 0 + y.val; omega
  | ⟨2, _⟩ => show 0 + 1 * e.val = e.val; omega

theorem rows1_apply (kb : Vec F S1x1024x64 .f32) (y : Fin 256) (e : Fin 64) :
    rows1 kb (ix3 0 y e) = kb (ix3 0 ⟨256 + y.val, by have := y.isLt; omega⟩ e) := by
  show kb _ = kb _
  congr 1
  funext a
  apply Fin.ext
  match a with
  | ⟨0, _⟩ => show 0 + 1 * 0 = 0; rfl
  | ⟨1, _⟩ => show 256 + 1 * y.val = 256 + y.val; omega
  | ⟨2, _⟩ => show 0 + 1 * e.val = e.val; omega

theorem rows2_apply (kb : Vec F S1x1024x64 .f32) (y : Fin 256) (e : Fin 64) :
    rows2 kb (ix3 0 y e) = kb (ix3 0 ⟨512 + y.val, by have := y.isLt; omega⟩ e) := by
  show kb _ = kb _
  congr 1
  funext a
  apply Fin.ext
  match a with
  | ⟨0, _⟩ => show 0 + 1 * 0 = 0; rfl
  | ⟨1, _⟩ => show 512 + 1 * y.val = 512 + y.val; omega
  | ⟨2, _⟩ => show 0 + 1 * e.val = e.val; omega

theorem rows3_apply (kb : Vec F S1x1024x64 .f32) (y : Fin 256) (e : Fin 64) :
    rows3 kb (ix3 0 y e) = kb (ix3 0 ⟨768 + y.val, by have := y.isLt; omega⟩ e) := by
  show kb _ = kb _
  congr 1
  funext a
  apply Fin.ext
  match a with
  | ⟨0, _⟩ => show 0 + 1 * 0 = 0; rfl
  | ⟨1, _⟩ => show 768 + 1 * y.val = 768 + y.val; omega
  | ⟨2, _⟩ => show 0 + 1 * e.val = e.val; omega

/-! ### The point's step -/

/-- After the four chunks the accumulator holds, entry by entry, the partial sum over 1024 more key rows. -/
theorem fourChunks_apply (Q K V : SArr.Idx → EReal) (b : Fin 4) (q0 k0 : ℕ) (hq0 : q0 + 1024 ≤ 4096) (hk0 : k0 + 1024 ≤ 4096)
    (qb kb vb acc : FVec Ideal S1x1024x64 .f32)
    (hq : ∀ (r : Fin 1024) (e : Fin 64), qb (ix3 0 r e) = Q (ix3 b ⟨q0 + r.val, by have := r.isLt; omega⟩ e))
    (hk : ∀ (n : ℕ) (hn : n < 1024) (e : Fin 64), kb (ix3 0 ⟨n, hn⟩ e) = K (ix3 b ⟨k0 + n, by omega⟩ e))
    (hv : ∀ (n : ℕ) (hn : n < 1024) (d : Fin 64), vb (ix3 0 ⟨n, hn⟩ d) = V (ix3 b ⟨k0 + n, by omega⟩ d))
    (r : Fin 1024) (d : Fin 64)
    (hacc : acc (ix3 0 r d) = partialSum Q K V b ⟨q0 + r.val, by have := r.isLt; omega⟩ d k0) :
    fourChunks (F := Ideal) qb kb vb acc (ix3 0 r d)
      = partialSum Q K V b ⟨q0 + r.val, by have := r.isLt; omega⟩ d (k0 + 1024) := by
  have h0 : chunkSum qb (rows0 (F := Ideal) kb) (rows0 (F := Ideal) vb) r d
      = ∑ x : Fin 256, term Q K V b ⟨q0 + r.val, by have := r.isLt; omega⟩ d ⟨k0 + 0 + x.val, by have := x.isLt; omega⟩ := by
    unfold chunkSum term score
    refine Finset.sum_congr rfl fun x _ => ?_
    have hx : (⟨k0 + (0 + x.val), by have := x.isLt; omega⟩ : Fin 4096) = ⟨k0 + 0 + x.val, by have := x.isLt; omega⟩ :=
      Fin.ext (Nat.add_assoc _ _ _).symm
    rw [rows0_apply, hv _ (by have := x.isLt; omega), hx]
    refine congrArg (fun z => Ideal.exp z * _) (Finset.sum_congr rfl fun e _ => ?_)
    rw [hq, rows0_apply, hk _ (by have := x.isLt; omega), hx]
  have h1 : chunkSum qb (rows1 (F := Ideal) kb) (rows1 (F := Ideal) vb) r d
      = ∑ x : Fin 256, term Q K V b ⟨q0 + r.val, by have := r.isLt; omega⟩ d ⟨k0 + 256 + x.val, by have := x.isLt; omega⟩ := by
    unfold chunkSum term score
    refine Finset.sum_congr rfl fun x _ => ?_
    have hx : (⟨k0 + (256 + x.val), by have := x.isLt; omega⟩ : Fin 4096) = ⟨k0 + 256 + x.val, by have := x.isLt; omega⟩ :=
      Fin.ext (Nat.add_assoc _ _ _).symm
    rw [rows1_apply, hv _ (by have := x.isLt; omega), hx]
    refine congrArg (fun z => Ideal.exp z * _) (Finset.sum_congr rfl fun e _ => ?_)
    rw [hq, rows1_apply, hk _ (by have := x.isLt; omega), hx]
  have h2 : chunkSum qb (rows2 (F := Ideal) kb) (rows2 (F := Ideal) vb) r d
      = ∑ x : Fin 256, term Q K V b ⟨q0 + r.val, by have := r.isLt; omega⟩ d ⟨k0 + 512 + x.val, by have := x.isLt; omega⟩ := by
    unfold chunkSum term score
    refine Finset.sum_congr rfl fun x _ => ?_
    have hx : (⟨k0 + (512 + x.val), by have := x.isLt; omega⟩ : Fin 4096) = ⟨k0 + 512 + x.val, by have := x.isLt; omega⟩ :=
      Fin.ext (Nat.add_assoc _ _ _).symm
    rw [rows2_apply, hv _ (by have := x.isLt; omega), hx]
    refine congrArg (fun z => Ideal.exp z * _) (Finset.sum_congr rfl fun e _ => ?_)
    rw [hq, rows2_apply, hk _ (by have := x.isLt; omega), hx]
  have h3 : chunkSum qb (rows3 (F := Ideal) kb) (rows3 (F := Ideal) vb) r d
      = ∑ x : Fin 256, term Q K V b ⟨q0 + r.val, by have := r.isLt; omega⟩ d ⟨k0 + 768 + x.val, by have := x.isLt; omega⟩ := by
    unfold chunkSum term score
    refine Finset.sum_congr rfl fun x _ => ?_
    have hx : (⟨k0 + (768 + x.val), by have := x.isLt; omega⟩ : Fin 4096) = ⟨k0 + 768 + x.val, by have := x.isLt; omega⟩ :=
      Fin.ext (Nat.add_assoc _ _ _).symm
    rw [rows3_apply, hv _ (by have := x.isLt; omega), hx]
    refine congrArg (fun z => Ideal.exp z * _) (Finset.sum_congr rfl fun e _ => ?_)
    rw [hq, rows3_apply, hk _ (by have := x.isLt; omega), hx]
  unfold fourChunks
  rw [pay6_apply, pay5_apply, pay4_eq, pay3_apply, pay2_apply, hacc, h0, h1, h2, h3]
  rw [show k0 + 1024 = k0 + 0 + 256 + 256 + 256 + 256 by omega,
    partialSum_add_chunk Q K V b _ d (k0 + 0 + 256 + 256 + 256) (by omega),
    partialSum_add_chunk Q K V b _ d (k0 + 0 + 256 + 256) (by omega),
    partialSum_add_chunk Q K V b _ d (k0 + 0 + 256) (by omega),
    partialSum_add_chunk Q K V b _ d (k0 + 0) (by omega)]
  rfl

end Cert.KernelIdeal.PointStep

end
-- ==== Proof.BlocksOfArrays.lean ====
/-
  Where each grid point's blocks sit in the arrays, and what the point does to the accumulator.

  The grid has 4 · 4 · 4 = 64 points, the last axis moving fastest: point t has batch t / 16, query
  block (t / 4) mod 4 and key block t mod 4. Its query block is rows 1024 · ((t / 4) mod 4) + r of batch
  t / 16 of q; its key and value blocks are rows 1024 · (t mod 4) + x of the same batch of k and of v;
  its output block sits where its query block does. The four points t = 4s, …, 4s + 3 of a run share
  a batch and a query block and walk the four key blocks in order, so after point t the accumulator
  holds, at (r, d), the partial sum of out[t / 16, 1024 · ((t / 4) mod 4) + r, d] over the key rows below
  1024 · (t mod 4) + 1024 — provided it started the point at the partial sum below 1024 · (t mod 4).
-/
import proofs.«124005_j60653528154261_2_alg».proof.Proof.PointStep
import proofs.«124005_j60653528154261_2_alg».proof.Proof.Gen.KernelIdeal.Value

set_option maxRecDepth 16384

noncomputable section

namespace Cert.KernelIdeal.AttnValue

open Cert.KernelIdeal Cert.KernelIdeal.Gen Idealize.ShloMosaic Idealize.ShloMosaic.TcCoe Idealize.ShloMosaic.ValueIdx
open Idealize.SL.Sem
open Cert.ExpAttention Cert.KernelIdeal.FourChunks Cert.KernelIdeal.ChunkAtIndex Cert.KernelIdeal.PointStep
open scoped BigOperators

variable (m : (ℓ : Loc nD τ sig) → Buf (Elt Ideal) ℓ)

/-- The block index of each window at each point, on each axis: decided once over the 64 points. -/
theorem idx_facts : ∀ t : Fin cfg0.N,
    win0_0.index t (0 : Fin 3) = t.val / 16 ∧ win0_0.index t (1 : Fin 3) = t.val / 4 % 4 ∧ win0_0.index t (2 : Fin 3) = 0
    ∧ win0_1.index t (0 : Fin 3) = t.val / 16 ∧ win0_1.index t (1 : Fin 3) = t.val % 4 ∧ win0_1.index t (2 : Fin 3) = 0
    ∧ win0_2.index t (0 : Fin 3) = t.val / 16 ∧ win0_2.index t (1 : Fin 3) = t.val % 4 ∧ win0_2.index t (2 : Fin 3) = 0
    ∧ win0_3.index t (0 : Fin 3) = t.val / 16 ∧ win0_3.index t (1 : Fin 3) = t.val / 4 % 4 ∧ win0_3.index t (2 : Fin 3) = 0 :=
  (by decide +kernel : ∀ t : Fin grid0.N, _)

/-- A point is below 64, … -/
theorem pt_lt (t : Fin cfg0.N) : t.val < 64 := lt_of_lt_of_eq t.isLt N_0
/-- … so its batch is below 4. -/
theorem batch_lt (t : Fin cfg0.N) : t.val / 16 < 4 := by have := pt_lt t; omega

/-! ### The three input blocks as rows of the arrays -/

/-- Row n of the point's query block is row 1024 · ((t / 4) mod 4) + n of batch t / 16 of q. -/
theorem queryBlock_apply (c : Dev nD) (t : Fin cfg0.N) (n : ℕ) (hn : n < 1024) (e : Fin 64) :
    (iblk m c 0 t : FVec Ideal S1x1024x64 .f32) (ix3 0 ⟨n, hn⟩ e)
      = m ((c : Thread nD τ).loc main_arg0) (ix3 ⟨t.val / 16, batch_lt t⟩ ⟨1024 * (t.val / 4 % 4) + n, by have := pt_lt t; omega⟩ e) := by
  obtain ⟨q0, q1, q2, k0, k1, k2, v0, v1, v2, -⟩ := idx_facts t
  unfold iblk
  rw [View.read_apply]
  show m ((c : Thread nD τ).loc main_arg0) _ = m ((c : Thread nD τ).loc main_arg0) _
  congr 1
  funext a
  apply Fin.ext
  match a with
  | ⟨0, _⟩ => show win0_0.index t (0 : Fin 3) * 1 + 1 * 0 = t.val / 16; omega
  | ⟨1, _⟩ => show win0_0.index t (1 : Fin 3) * 1024 + 1 * n = 1024 * (t.val / 4 % 4) + n; omega
  | ⟨2, _⟩ => show win0_0.index t (2 : Fin 3) * 64 + 1 * e.val = e.val; omega

/-- Row n of the point's key block is row 1024 · (t mod 4) + n of batch t / 16 of k. -/
theorem keyBlock_apply (c : Dev nD) (t : Fin cfg0.N) (n : ℕ) (hn : n < 1024) (e : Fin 64) :
    (iblk m c 1 t : FVec Ideal S1x1024x64 .f32) (ix3 0 ⟨n, hn⟩ e)
      = m ((c : Thread nD τ).loc main_arg1) (ix3 ⟨t.val / 16, batch_lt t⟩ ⟨1024 * (t.val % 4) + n, by have := pt_lt t; omega⟩ e) := by
  obtain ⟨q0, q1, q2, k0, k1, k2, v0, v1, v2, -⟩ := idx_facts t
  unfold iblk
  rw [View.read_apply]
  show m ((c : Thread nD τ).loc main_arg1) _ = m ((c : Thread nD τ).loc main_arg1) _
  congr 1
  funext a
  apply Fin.ext
  match a with
  | ⟨0, _⟩ => show win0_1.index t (0 : Fin 3) * 1 + 1 * 0 = t.val / 16; omega
  | ⟨1, _⟩ => show win0_1.index t (1 : Fin 3) * 1024 + 1 * n = 1024 * (t.val % 4) + n; omega
  | ⟨2, _⟩ => show win0_1.index t (2 : Fin 3) * 64 + 1 * e.val = e.val; omega

/-- Row n of the point's value block is row 1024 · (t mod 4) + n of batch t / 16 of v. -/
theorem valueBlock_apply (c : Dev nD) (t : Fin cfg0.N) (n : ℕ) (hn : n < 1024) (e : Fin 64) :
    (iblk m c 2 t : FVec Ideal S1x1024x64 .f32) (ix3 0 ⟨n, hn⟩ e)
      = m ((c : Thread nD τ).loc main_arg2) (ix3 ⟨t.val / 16, batch_lt t⟩ ⟨1024 * (t.val % 4) + n, by have := pt_lt t; omega⟩ e) := by
  obtain ⟨q0, q1, q2, k0, k1, k2, v0, v1, v2, -⟩ := idx_facts t
  unfold iblk
  rw [View.read_apply]
  show m ((c : Thread nD τ).loc main_arg2) _ = m ((c : Thread nD τ).loc main_arg2) _
  congr 1
  funext a
  apply Fin.ext
  match a with
  | ⟨0, _⟩ => show win0_2.index t (0 : Fin 3) * 1 + 1 * 0 = t.val / 16; omega
  | ⟨1, _⟩ => show win0_2.index t (1 : Fin 3) * 1024 + 1 * n = 1024 * (t.val % 4) + n; omega
  | ⟨2, _⟩ => show win0_2.index t (2 : Fin 3) * 64 + 1 * e.val = e.val; omega

/-! ### The accumulator after a point -/

/-- What the accumulator holds after point n: entry (r, d) is the partial sum of the entry
    out[n / 16, 1024 · ((n / 4) mod 4) + r, d] over the key rows below 1024 · (n mod 4) + 1024. -/
def accAfter (c : Dev nD) (n : ℕ) (hn : n < 64) : FVec Ideal S1x1024x64 .f32 := fun y =>
  partialSum (m ((c : Thread nD τ).loc main_arg0)) (m ((c : Thread nD τ).loc main_arg1)) (m ((c : Thread nD τ).loc main_arg2))
    ⟨n / 16, by omega⟩ ⟨1024 * (n / 4 % 4) + (y 1).val, by have h : (y 1).val < 1024 := (y 1).isLt; omega⟩ (y 2) (1024 * (n % 4) + 1024)

/-- Partial sums at equal batches, rows and bounds are equal. -/
theorem partialSum_congr (Q K V : SArr.Idx → EReal) {b b' : Fin 4} {i i' : Fin 4096} (d : Fin 64) {k k' : ℕ}
    (hb : b.val = b'.val) (hi : i.val = i'.val) (hk : k = k') :
    partialSum Q K V b i d k = partialSum Q K V b' i' d k' := by
  obtain rfl := Fin.ext hb
  obtain rfl := Fin.ext hi
  subst hk
  rfl

/-- From an accumulator that holds the partial sums below the point's first key row, the point's four
    chunks leave the partial sums below its last key row plus one. -/
theorem afterPoint (c : Dev nD) (t : Fin cfg0.N) (acc : FVec Ideal S1x1024x64 .f32)
    (hacc : ∀ (r : Fin 1024) (d : Fin 64), acc (ix3 0 r d)
      = partialSum (m ((c : Thread nD τ).loc main_arg0)) (m ((c : Thread nD τ).loc main_arg1)) (m ((c : Thread nD τ).loc main_arg2))
          ⟨t.val / 16, batch_lt t⟩ ⟨1024 * (t.val / 4 % 4) + r.val, by have := r.isLt; omega⟩ d (1024 * (t.val % 4))) :
    fourChunks (F := Ideal) (iblk m c 0 t) (iblk m c 1 t) (iblk m c 2 t) acc = accAfter m c t.val (pt_lt t) := by
  funext y
  have hy : y = ix3 0 (y 1) (y 2) := by
    funext a
    match a with
    | ⟨0, _⟩ => exact Fin.ext (by have h : (y 0).val < 1 := (y 0).isLt; show (y 0).val = 0; omega)
    | ⟨1, _⟩ => rfl
    | ⟨2, _⟩ => rfl
  rw [hy]
  exact fourChunks_apply (m ((c : Thread nD τ).loc main_arg0)) (m ((c : Thread nD τ).loc main_arg1)) (m ((c : Thread nD τ).loc main_arg2))
    ⟨t.val / 16, batch_lt t⟩ (1024 * (t.val / 4 % 4)) (1024 * (t.val % 4)) (by omega) (by omega)
    (iblk m c 0 t) (iblk m c 1 t) (iblk m c 2 t) acc
    (fun r e => queryBlock_apply m c t r.val r.isLt e)
    (fun n hn e => keyBlock_apply m c t n hn e)
    (fun n hn d => valueBlock_apply m c t n hn d)
    (y 1) (y 2) (hacc (y 1) (y 2))

end Cert.KernelIdeal.AttnValue

end
-- ==== Proof.KernelIsExpAttention.lean ====
/-
  The kernel computes unnormalized exponential attention.

  By induction along the grid, after every point the accumulator holds the partial sums the point's
  position says (`accAfter`): the first point of a run starts from the zero block, which is the empty
  partial sum; every other point starts from what the point before left, which is the partial sum
  below its own first key row, because consecutive points of a run share their batch and query block
  and take consecutive key blocks. The last point of a run has then seen all 4096 key rows, so the
  block it copies to the output holds the whole sums: it is the corresponding block of `expAttn`. Those
  last points are the only ones whose output block is written back, and their blocks — one per batch
  and query block — tile the result array. So the result array ends holding `expAttn` of q, k and v.
-/
import proofs.«124005_j60653528154261_2_alg».proof.Proof.BlocksOfArrays

set_option maxRecDepth 16384

noncomputable section

namespace Cert.KernelIdeal.AttnValue

open Cert.KernelIdeal Cert.KernelIdeal.Gen Idealize.ShloMosaic Idealize.ShloMosaic.TcCoe Idealize.ShloMosaic.ValueIdx
open Idealize.SL.Sem
open Idealize.ShloMosaic.Pipeline (Dat)
open Cert.ExpAttention Cert.KernelIdeal.FourChunks Cert.KernelIdeal.ChunkAtIndex Cert.KernelIdeal.PointStep
open scoped BigOperators

variable (m : (ℓ : Loc nD τ sig) → Buf (Elt Ideal) ℓ) (ρ : Dev nD → PrngReg)

/-! ### The accumulator after each point -/

/-- The block the first point of a run stores first is the empty partial sum everywhere. -/
theorem zero_is_empty (c : Dev nD) (t : Fin cfg0.N) (h0 : t.val % 4 = 0) (r : Fin 1024) (d : Fin 64) :
    (k0_pay1 (F := Ideal)) (ix3 0 r d) = partialSum (m ((c : Thread nD τ).loc main_arg0)) (m ((c : Thread nD τ).loc main_arg1)) (m ((c : Thread nD τ).loc main_arg2))
          ⟨t.val / 16, batch_lt t⟩ ⟨1024 * (t.val / 4 % 4) + r.val, by have := r.isLt; omega⟩ d (1024 * (t.val % 4)) := by
  rw [pay1_apply, h0]
  exact (partialSum_zero _ _ _ _ _ _).symm

/-- What a point that is not the first of its run is handed: the point before had the same batch and query
    block and the key block just before, so what it left is the partial sum below this point's first key row. -/
theorem carried (c : Dev nD) (t : Fin cfg0.N) (h0 : ¬t.val % 4 = 0)
    (ih : (outsAt0 m c (t.val - 1) (Nat.lt_of_le_of_lt (Nat.sub_le _ _) t.isLt)).2 = accAfter m c (t.val - 1) (by have := pt_lt t; omega))
    (r : Fin 1024) (d : Fin 64) :
    (outsAt0 m c (t.val - 1) (Nat.lt_of_le_of_lt (Nat.sub_le _ _) t.isLt)).2 (ix3 0 r d) = partialSum (m ((c : Thread nD τ).loc main_arg0)) (m ((c : Thread nD τ).loc main_arg1)) (m ((c : Thread nD τ).loc main_arg2))
          ⟨t.val / 16, batch_lt t⟩ ⟨1024 * (t.val / 4 % 4) + r.val, by have := r.isLt; omega⟩ d (1024 * (t.val % 4)) := by
  rw [ih]
  unfold accAfter
  exact partialSum_congr _ _ _ d
    (by show (t.val - 1) / 16 = t.val / 16; omega)
    (by show 1024 * ((t.val - 1) / 4 % 4) + r.val = 1024 * (t.val / 4 % 4) + r.val; omega)
    (by omega)

/-- The first point of a run: from the zero block, the empty partial sum. -/
theorem afterFirst (c : Dev nD) (t : Fin cfg0.N) (h0 : t.val % 4 = 0) (h1 : ¬t.val % 4 = 3) :
    (outsAt0 m c t.val t.isLt).2 = accAfter m c t.val (pt_lt t) := by
  rw [outsAt0_A m c t h0 h1]
  dsimp only
  rw [scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)]
  exact afterPoint m c t (k0_pay1 (F := Ideal)) (zero_is_empty m c t h0)

/-- A middle point of a run: from what the point before left. -/
theorem afterMiddle (c : Dev nD) (t : Fin cfg0.N) (h0 : ¬t.val % 4 = 0) (h1 : ¬t.val % 4 = 3)
    (ih : (outsAt0 m c (t.val - 1) (Nat.lt_of_le_of_lt (Nat.sub_le _ _) t.isLt)).2 = accAfter m c (t.val - 1) (by have := pt_lt t; omega)) :
    (outsAt0 m c t.val t.isLt).2 = accAfter m c t.val (pt_lt t) := by
  rw [outsAt0_B m c t h0 h1]
  dsimp only
  rw [scratch_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2]
  exact afterPoint m c t (outsAt0 m c (t.val - 1) (Nat.lt_of_le_of_lt (Nat.sub_le _ _) t.isLt)).2 (carried m c t h0 ih)

/-- The last point of a run: the same for the accumulator … -/
theorem afterLast (c : Dev nD) (t : Fin cfg0.N) (h0 : ¬t.val % 4 = 0) (h1 : t.val % 4 = 3)
    (ih : (outsAt0 m c (t.val - 1) (Nat.lt_of_le_of_lt (Nat.sub_le _ _) t.isLt)).2 = accAfter m c (t.val - 1) (by have := pt_lt t; omega)) :
    (outsAt0 m c t.val t.isLt).2 = accAfter m c t.val (pt_lt t) := by
  rw [outsAt0_C m c t h0 h1]
  dsimp only
  rw [scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2]
  exact afterPoint m c t (outsAt0 m c (t.val - 1) (Nat.lt_of_le_of_lt (Nat.sub_le _ _) t.isLt)).2 (carried m c t h0 ih)

/-- … and the output block it stores is that accumulator. -/
theorem outputLast (c : Dev nD) (t : Fin cfg0.N) (h0 : ¬t.val % 4 = 0) (h1 : t.val % 4 = 3)
    (ih : (outsAt0 m c (t.val - 1) (Nat.lt_of_le_of_lt (Nat.sub_le _ _) t.isLt)).2 = accAfter m c (t.val - 1) (by have := pt_lt t; omega)) :
    (outsAt0 m c t.val t.isLt).1 = accAfter m c t.val (pt_lt t) := by
  rw [outsAt0_C m c t h0 h1]
  dsimp only
  rw [output_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2]
  exact afterPoint m c t (outsAt0 m c (t.val - 1) (Nat.lt_of_le_of_lt (Nat.sub_le _ _) t.isLt)).2 (carried m c t h0 ih)

/-- After every point the accumulator holds the partial sums its position says: by induction along the grid. -/
theorem acc_eq (c : Dev nD) : ∀ (n : ℕ) (h : n < cfg0.N), (outsAt0 m c n h).2 = accAfter m c n (lt_of_lt_of_eq h N_0)
  | 0, h => afterFirst m c ⟨0, h⟩ (Nat.zero_mod 4) (by show ¬(0 % 4 = 3); decide)
  | n + 1, h => by
    by_cases h0 : (n + 1) % 4 = 0
    · exact afterFirst m c ⟨n + 1, h⟩ h0 (by show ¬((n + 1) % 4 = 3); omega)
    · by_cases h1 : (n + 1) % 4 = 3
      · exact afterLast m c ⟨n + 1, h⟩ h0 h1 (acc_eq c n (Nat.lt_of_succ_lt h))
      · exact afterMiddle m c ⟨n + 1, h⟩ h0 h1 (acc_eq c n (Nat.lt_of_succ_lt h))

/-! ### What is written back, and where -/

/-- An entry of `expAttn` is the partial sum over all 4096 key rows, at the entry's coordinates. -/
theorem expAttn_apply_of (Q K V : SArr.Idx → EReal) (x : SArr.Idx) (b : Fin 4) (i : Fin 4096) (d : Fin 64)
    (hb : (x 0).val = b.val) (hi : (x 1).val = i.val) (hd : (x 2).val = d.val) :
    expAttn Q K V x = partialSum Q K V b i d 4096 := by
  have e0 : x 0 = b := Fin.ext hb
  have e1 : x 1 = i := Fin.ext hi
  have e2 : x 2 = d := Fin.ext hd
  unfold expAttn
  rw [partialSum_full, e0, e1, e2]

/-- What a last point of a run writes back is its block of `expAttn`. -/
theorem flushed_eq (c : Dev nD) (t : Fin cfg0.N) (hf : (cfg0.win 3).flush t = true) :
    (dats m 0 c).flushed 3 t = ((cfg0.win 3).blk t).view.read (Elt Ideal) (expAttn (m ((c : Thread nD τ).loc main_arg0)) (m ((c : Thread nD τ).loc main_arg1)) (m ((c : Thread nD τ).loc main_arg2))) := by
  have h1 : t.val % 4 = 3 := (flush0_3 t).mp hf
  have h0 : ¬t.val % 4 = 0 := by omega
  obtain ⟨-, -, -, -, -, -, -, -, -, o0, o1, o2⟩ := idx_facts t
  rw [Cert.KernelIdeal.Value.flushed3 m c t,
    outputLast m c t h0 h1 (acc_eq m c (t.val - 1) (Nat.lt_of_le_of_lt (Nat.sub_le _ _) t.isLt))]
  funext j
  show accAfter m c t.val (pt_lt t) j = expAttn (m ((c : Thread nD τ).loc main_arg0)) (m ((c : Thread nD τ).loc main_arg1)) (m ((c : Thread nD τ).loc main_arg2)) (((cfg0.win 3).blk t).view.emb j)
  unfold accAfter
  rw [show 1024 * (t.val % 4) + 1024 = 4096 by omega]
  exact (expAttn_apply_of _ _ _ _ _ _ _
    (by show win0_3.index t (0 : Fin 3) * 1 + 1 * (j 0).val = t.val / 16; have h : (j 0).val < 1 := (j 0).isLt; omega)
    (by show win0_3.index t (1 : Fin 3) * 1024 + 1 * (j 1).val = 1024 * (t.val / 4 % 4) + (j 1).val; omega)
    (by show win0_3.index t (2 : Fin 3) * 64 + 1 * (j 2).val = (j 2).val; omega)).symm

/-- An entry of the result array is in a point's output block iff each coordinate is in the block's range. -/
theorem mem_block (t : Fin cfg0.N) (i : S4x4096x64.Idx) :
    i ∈ ((cfg0.win 3).blk t).view.set ↔ ∀ a : Fin 3, win0_3.index t a * S1x1024x64.size a ≤ (i a).val ∧ (i a).val < win0_3.index t a * S1x1024x64.size a + S1x1024x64.size a := by
  show i ∈ ((View.whole main_v0).slice (win0_3.rect t)).set ↔ _
  rw [View.set_slice_whole, Rect.mem_set_unit]
  exact Iff.rfl

/-- Every entry (b, i, d) of the result array is in the output block of the last point of the run of batch b and
    query block i / 1024, which is written back. -/
theorem covered (i : S4x4096x64.Idx) :
    ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 64 := (i 2).isLt
  have hlt : 16 * (i 0).val + 4 * ((i 1).val / 1024) + 3 < 64 := by omega
  obtain ⟨t, ht⟩ : ∃ t : Fin cfg0.N, t.val = 16 * (i 0).val + 4 * ((i 1).val / 1024) + 3 :=
    ⟨⟨_, lt_of_lt_of_eq hlt N_0.symm⟩, rfl⟩
  obtain ⟨-, -, -, -, -, -, -, -, -, o0, o1, o2⟩ := idx_facts t
  refine ⟨t, (flush0_3 t).mpr (by omega), (mem_block t i).mpr fun a => ?_⟩
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-! ### The result array, and the run -/

/-- After the run the result array holds `expAttn` of the three argument arrays. -/
theorem final (c : Dev nD) : (dats m 0 c).arrAt 3 cfg0.N = expAttn (m ((c : Thread nD τ).loc main_arg0)) (m ((c : Thread nD τ).loc main_arg1)) (m ((c : Thread nD τ).loc main_arg2)) :=
  (dats m 0 c).arrAt_eq_of_cover 3 (expAttn (m ((c : Thread nD τ).loc main_arg0)) (m ((c : Thread nD τ).loc main_arg1)) (m ((c : Thread nD τ).loc main_arg2))) (fun t hf => flushed_eq m c t hf) covered

/-- Every weakly fair execution of the idealized kernel terminates with the result array at `expAttn` of the
    arguments and the arguments unchanged. -/
theorem run : θ_run defs (onTc (τ := τ) (main (F := Ideal))) ⟨m, fun _ => 0, ρ⟩ fun r => ∀ c : Dev nD,
      r.2.mem ((c : Thread nD τ).loc main_v0) = expAttn (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.AttnValue

end
-- ==== Proof.lean ====
/-
  The kernel against its reference: unnormalized exponential attention,

      out[b, i, d] = Σ_j exp (Σ_e q[b, i, e] · k[b, j, e]) · v[b, j, d]      (b < 4, i, j < 4096, d, e < 64),

  with no scaling of the scores, no subtraction of a row maximum and no normalisation, on either side.

  The reference forms all the scores at once, exponentiates them, and multiplies by v: read at an index
  that is the sum above, term by term (Proof/ReferenceIsExpAttention.lean).

  The kernel walks a grid of 4 · 4 · 4 points: batch, query block of 1024 rows, key block of 1024 rows, the
  key block moving fastest. At each point it adds to an accumulator, in four chunks of 256 key rows, the
  exponentials of that chunk's scores times that chunk's values; it zeroes the accumulator at the first
  key block of a run and copies it to the result at the last. Over the extended reals the two matrix
  products are plain sums and the narrowing to a shorter float format is the identity, so after each
  point the accumulator holds the partial sum over the key rows seen so far, and after the last point of
  a run the whole sum (Proof/ChunkAtIndex.lean, PointStep.lean, BlocksOfArrays.lean,
  KernelIsExpAttention.lean, over the specification Proof/ExpAttention.lean).

  The two sides differ only in how one sum of 4096 terms is grouped — 4 · 4 · 256 against all at once —
  and in the zero the kernel's accumulator starts from. Addition on the extended reals is a commutative
  monoid with 0 as its unit, infinities included, so the two agree for every input: the finiteness of
  the inputs is not used. The idealization rewrote no operation, so there is nothing to preserve.
-/
import proofs.«124005_j60653528154261_2_alg».proof.Defs
import proofs.«124005_j60653528154261_2_alg».proof.Proof.Gen.Kernel
import proofs.«124005_j60653528154261_2_alg».proof.Proof.Gen.Kernel.Frame
import proofs.«124005_j60653528154261_2_alg».proof.Proof.Gen.KernelIdeal
import proofs.«124005_j60653528154261_2_alg».proof.Proof.Gen.KernelIdeal.Frame
import proofs.«124005_j60653528154261_2_alg».proof.Proof.Gen.KernelIdeal.Value
import proofs.«124005_j60653528154261_2_alg».proof.Proof.Gen.ReferenceIdeal
import proofs.«124005_j60653528154261_2_alg».proof.Proof.Gen.ReferenceIdeal.Run
import proofs.«124005_j60653528154261_2_alg».proof.Proof.Gen.ReferenceIdeal.Read
import proofs.«124005_j60653528154261_2_alg».proof.Proof.Gen.Pre_finite_inputs
import proofs.«124005_j60653528154261_2_alg».proof.Proof.ReferenceIsExpAttention
import proofs.«124005_j60653528154261_2_alg».proof.Proof.KernelIsExpAttention
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on q, k and v, the kernel's result array and the reference's both end at
    unnormalized exponential attention of the same three arrays. -/
theorem algebraic : Cert.algebraic_KernelIdeal_ReferenceIdeal := by
  intro m ρ m' ρ' _ hagree
  refine ⟨fun c => Cert.ExpAttention.expAttn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
